-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x32 : Shape := ⟨2, ![131072, 32]⟩
abbrev S512x32 : Shape := ⟨2, ![512, 32]⟩
abbrev S1x512 : Shape := ⟨2, ![1, 512]⟩
abbrev S3x512 : Shape := ⟨2, ![3, 512]⟩
abbrev S3 : Shape := ⟨1, ![3]⟩
abbrev S_ : Shape := ⟨0, ![]⟩

class Facts : Prop where
  bcast_S_S131072x32 : S_.BroadcastsInDim S131072x32 (![] : Fin 0 → Fin S131072x32.rank)
  reducesTo_S131072x32_S_d0_1 : S131072x32.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S1x512 : S_.BroadcastsInDim S1x512 (![] : Fin 0 → Fin S1x512.rank)
  reducesTo_S1x512_S_d0_1 : S1x512.ReducesTo [0, 1] S_
  bcast_S_S3x512 : S_.BroadcastsInDim S3x512 (![] : Fin 0 → Fin S3x512.rank)
  reducesTo_S3x512_S_d0_1 : S3x512.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg2 : FVec F S1x512 .f32) (main_arg4 : FVec F S3 .f32) (main_v13 : IVec S_ 1) (main_v16 : IVec S3x512 1) : IVec S_ 1 :=
  let main_c_5 : IVec S_ 1 := constantI S_ 1 1#1
  let main_v17 : IVec S_ 1 := (fun x v => Host.reduce IntOp.andi x v reducesTo_S3x512_S_d0_1 h_S_) main_v16 main_c_5
  let main_v18 : IVec S_ 1 := andi main_v13 main_v17
  let main_v19 : FVec F S3 .f32 := Host.absf main_arg4
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  let main_cst_8 : FVec F S_ .f32 := constant S_ .f32 0x00000000#32
  let main_v24 : FVec F S1x512 .f32 := broadcastInDim S1x512 ![] bcast_S_S1x512 main_cst_8
  let main_v25 : IVec S1x512 1 := cmpf .une main_arg2 main_v24
  let main_c_9 : IVec S_ 1 := constantI S_ 1 1#1
  let main_v26 : IVec S_ 1 := (fun x v => Host.reduce IntOp.andi x v reducesTo_S1x512_S_d0_1 h_S_) main_v25 main_c_9
  let main_v27 : IVec S_ 1 := andi main_v23 main_v26
  main_v27

def fn {F : FTy → Type} [FloatOps F] (main_arg0 : FVec F S131072x32 .f32) (main_arg1 : FVec F S512x32 .f32) (main_arg2 : FVec F S1x512 .f32) (main_arg3 : FVec F S3x512 .f32) (main_arg4 : FVec F S3 .f32) : IVec S_ 1 :=
  let main_v0 : FVec F S131072x32 .f32 := Host.absf main_arg0
  let main_cst : FVec F S_ .f32 := constant S_ .f32 0x7F800000#32
  let main_v1 : FVec F S131072x32 .f32 := broadcastInDim S131072x32 ![] bcast_S_S131072x32 main_cst
  let main_v2 : IVec S131072x32 1 := cmpf .olt main_v0 main_v1
  let main_c : IVec S_ 1 := constantI S_ 1 1#1
  let main_v3 : IVec S_ 1 := (fun x v => Host.reduce IntOp.andi x v reducesTo_S131072x32_S_d0_1 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S3x512 .f32 := Host.absf main_arg3
  let main_cst_4 : FVec F S_ .f32 := constant S_ .f32 0x7F800000#32
  let main_v15 : FVec F S3x512 .f32 := broadcastInDim S3x512 ![] bcast_S_S3x512 main_cst_4
  let main_v16 : IVec S3x512 1 := cmpf .olt main_v14 main_v15
  fn_part1 (F := F) main_arg2 main_arg4 main_v13 main_v16
-- ==== Kernel.lean ====
abbrev S131072x32 : Shape := ⟨2, ![131072, 32]⟩
abbrev S512x32 : Shape := ⟨2, ![512, 32]⟩
abbrev S1x512 : Shape := ⟨2, ![1, 512]⟩
abbrev S3x512 : Shape := ⟨2, ![3, 512]⟩
abbrev S3 : Shape := ⟨1, ![3]⟩
abbrev S_ : Shape := ⟨0, ![]⟩
abbrev S512 : Shape := ⟨1, ![512]⟩
abbrev S3x1 : Shape := ⟨2, ![3, 1]⟩
abbrev S3x131072 : Shape := ⟨2, ![3, 131072]⟩
abbrev S2048x32 : Shape := ⟨2, ![2048, 32]⟩
abbrev S3x2048 : Shape := ⟨2, ![3, 2048]⟩
abbrev S2048 : Shape := ⟨1, ![2048]⟩
abbrev S2048x1 : Shape := ⟨2, ![2048, 1]⟩
abbrev S2048x512 : Shape := ⟨2, ![2048, 512]⟩
abbrev S131072x3 : Shape := ⟨2, ![131072, 3]⟩

abbrev nBuf : Space → Nat
  | .hbm => 17
  | .vmem => 9
  | .smem => 0
  | _ => 0

abbrev bufTy : (tb : Table) → Fin (tcTables nBuf tb) → BufTy
  | .hbm, ⟨0, _⟩ => ⟨S131072x32, .f32⟩
  | .hbm, ⟨1, _⟩ => ⟨S512x32, .f32⟩
  | .hbm, ⟨2, _⟩ => ⟨S1x512, .f32⟩
  | .hbm, ⟨3, _⟩ => ⟨S3x512, .f32⟩
  | .hbm, ⟨4, _⟩ => ⟨S3, .f32⟩
  | .hbm, ⟨5, _⟩ => ⟨S512x32, .f32⟩
  | .hbm, ⟨6, _⟩ => ⟨S_, .f32⟩
  | .hbm, ⟨7, _⟩ => ⟨S512, .f32⟩
  | .hbm, ⟨8, _⟩ => ⟨S1x512, .f32⟩
  | .hbm, ⟨9, _⟩ => ⟨S1x512, .f32⟩
  | .hbm, ⟨10, _⟩ => ⟨S_, .f32⟩
  | .hbm, ⟨11, _⟩ => ⟨S1x512, .f32⟩
  | .hbm, ⟨12, _⟩ => ⟨S1x512, .f32⟩
  | .hbm, ⟨13, _⟩ => ⟨S3x512, .bf16⟩
  | .hbm, ⟨14, _⟩ => ⟨S3x1, .f32⟩
  | .hbm, ⟨15, _⟩ => ⟨S3x131072, .f32⟩
  | .hbm, ⟨16, _⟩ => ⟨S131072x3, .f32⟩
  | .local _ .vmem, ⟨0, _⟩ => ⟨S2048x32, .f32⟩
  | .local _ .vmem, ⟨1, _⟩ => ⟨S2048x32, .f32⟩
  | .local _ .vmem, ⟨2, _⟩ => ⟨S512x32, .f32⟩
  | .local _ .vmem, ⟨3, _⟩ => ⟨S1x512, .f32⟩
  | .local _ .vmem, ⟨4, _⟩ => ⟨S1x512, .f32⟩
  | .local _ .vmem, ⟨5, _⟩ => ⟨S3x512, .bf16⟩
  | .local _ .vmem, ⟨6, _⟩ => ⟨S3x1, .f32⟩
  | .local _ .vmem, ⟨7, _⟩ => ⟨S3x2048, .f32⟩
  | .local _ .vmem, ⟨8, _⟩ => ⟨S3x2048, .f32⟩
  | _, _ => ⟨S131072x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S512x32_S512_d1 : S512x32.ReducesTo [1] S512
  h_S_ : 0 < S_.numel
  bcast_S512_S1x512_1 : S512.BroadcastsInDim S1x512 (![1] : Fin 1 → Fin S1x512.rank)
  bcast_S_S1x512 : S_.BroadcastsInDim S1x512 (![] : Fin 0 → Fin S1x512.rank)
  bitsLt_bf16_f32 : FTy.bits .bf16 < FTy.bits .f32
  shapeCasts_S3_S3x1 : S3.ShapeCasts S3x1
  inb_S2048x32_S2048x32_0_0 : ∀ a, (![0, 0] : Fin 2 → Nat) a + S2048x32.size a ≤ S2048x32.size a
  h_S2048x32 : 0 < S2048x32.numel
  inb_S512x32_S512x32_0_0 : ∀ a, (![0, 0] : Fin 2 → Nat) a + S512x32.size a ≤ S512x32.size a
  h_S512x32 : 0 < S512x32.numel
  reduces_S2048x32_S2048 : S2048x32.Reduces [1] S2048
  shapeCasts_S2048_S2048x1 : S2048.ShapeCasts S2048x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S2048x1_S2048x512 : S2048x1.Broadcasts S2048x512
  broadcasts_S1x512_S2048x512 : S1x512.Broadcasts S2048x512
  inb_S3x512_S3x512_0_0 : ∀ a, (![0, 0] : Fin 2 → Nat) a + S3x512.size a ≤ S3x512.size a
  h_S3x512 : 0 < S3x512.numel
  shapeCasts_S3x512_S3x512 : S3x512.ShapeCasts S3x512
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x2048 : S3x1.Broadcasts S3x2048
  inb_S3x2048_S3x2048_0_0 : ∀ a, (![0, 0] : Fin 2 → Nat) a + S3x2048.size a ≤ S3x2048.size a
  h_S3x2048 : 0 < S3x2048.numel
  transposes_S3x131072_S131072x3_1_0 : S3x131072.Transposes [1, 0] S131072x3
  dot_S2048x32_S512x32_S2048x512_1_1_0_0_n_n_wf : DotDims.WF S2048x32 S512x32 S2048x512 [1] [1] [0] [0] [] []
  dot_S3x512_S2048x512_S3x2048_1_1_0_0_n_n_wf : DotDims.WF S3x512 S2048x512 S3x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x32.size a ≤ S131072x32.size a
  hwx0_0 : ∀ i : grid0.Coords, EltTy.bits .f32 = 32 ∨ (Rect.block (s := S131072x32) S2048x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x512.size a ≤ S3x512.size a
  hwx0_4 : ∀ i : grid0.Coords, EltTy.bits .bf16 = 32 ∨ (Rect.block (s := S3x512) S3x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x1.size a ≤ S3x1.size a
  hwx0_5 : ∀ i : grid0.Coords, EltTy.bits .f32 = 32 ∨ (Rect.block (s := S3x1) S3x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S3x2048.size a ≤ S3x131072.size a
  hwx0_6 : ∀ i : grid0.Coords, EltTy.bits .f32 = 32 ∨ (Rect.block (s := S3x131072) S3x2048.size (cc0_transform_6 i) (hinb0_6 i)).WholeWords (EltTy.packing .f32)

variable [Facts₀]

def dot_S2048x32_S512x32_S2048x512_1_1_0_0_n_n : DotDims S2048x32 S512x32 S2048x512 where
  lhsContracting := [1]
  rhsContracting := [1]
  lhsNonContracting := [0]
  rhsNonContracting := [0]
  lhsBatch := []
  rhsBatch := []
  wf := dot_S2048x32_S512x32_S2048x512_1_1_0_0_n_n_wf
def dot_S3x512_S2048x512_S3x2048_1_1_0_0_n_n : DotDims S3x512 S2048x512 S3x2048 where
  lhsContracting := [1]
  rhsContracting := [1]
  lhsNonContracting := [0]
  rhsNonContracting := [0]
  lhsBatch := []
  rhsBatch := []
  wf := dot_S3x512_S2048x512_S3x2048_1_1_0_0_n_n_wf

abbrev win0_0 : Pipeline.Window sig grid0 :=
  Pipeline.Window.ofSpec (Memref.whole main_arg0) S2048x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S3x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S3x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S3x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S131072x32 : Shape := ⟨2, ![131072, 32]⟩
abbrev S512x32 : Shape := ⟨2, ![512, 32]⟩
abbrev S1x512 : Shape := ⟨2, ![1, 512]⟩
abbrev S3x512 : Shape := ⟨2, ![3, 512]⟩
abbrev S3 : Shape := ⟨1, ![3]⟩
abbrev S_ : Shape := ⟨0, ![]⟩
abbrev S131072 : Shape := ⟨1, ![131072]⟩
abbrev S131072x1 : Shape := ⟨2, ![131072, 1]⟩
abbrev S512 : Shape := ⟨1, ![512]⟩
abbrev S32x512 : Shape := ⟨2, ![32, 512]⟩
abbrev S131072x512 : Shape := ⟨2, ![131072, 512]⟩
abbrev S512x3 : Shape := ⟨2, ![512, 3]⟩
abbrev S131072x3 : Shape := ⟨2, ![131072, 3]⟩
abbrev S1x3 : Shape := ⟨2, ![1, 3]⟩

abbrev nBuf : Space → Nat
  | .hbm => 32
  | .vmem => 0
  | .smem => 0
  | _ => 0

abbrev bufTy : (tb : Table) → Fin (tcTables nBuf tb) → BufTy
  | .hbm, ⟨0, _⟩ => ⟨S131072x32, .f32⟩
  | .hbm, ⟨1, _⟩ => ⟨S512x32, .f32⟩
  | .hbm, ⟨2, _⟩ => ⟨S1x512, .f32⟩
  | .hbm, ⟨3, _⟩ => ⟨S3x512, .f32⟩
  | .hbm, ⟨4, _⟩ => ⟨S3, .f32⟩
  | .hbm, ⟨5, _⟩ => ⟨S131072x32, .f32⟩
  | .hbm, ⟨6, _⟩ => ⟨S_, .f32⟩
  | .hbm, ⟨7, _⟩ => ⟨S131072, .f32⟩
  | .hbm, ⟨8, _⟩ => ⟨S131072x1, .f32⟩
  | .hbm, ⟨9, _⟩ => ⟨S512x32, .f32⟩
  | .hbm, ⟨10, _⟩ => ⟨S_, .f32⟩
  | .hbm, ⟨11, _⟩ => ⟨S512, .f32⟩
  | .hbm, ⟨12, _⟩ => ⟨S1x512, .f32⟩
  | .hbm, ⟨13, _⟩ => ⟨S32x512, .f32⟩
  | .hbm, ⟨14, _⟩ => ⟨S131072x512, .f32⟩
  | .hbm, ⟨15, _⟩ => ⟨S131072x512, .f32⟩
  | .hbm, ⟨16, _⟩ => ⟨S131072x512, .f32⟩
  | .hbm, ⟨17, _⟩ => ⟨S131072x512, .f32⟩
  | .hbm, ⟨18, _⟩ => ⟨S_, .f32⟩
  | .hbm, ⟨19, _⟩ => ⟨S131072x512, .f32⟩
  | .hbm, ⟨20, _⟩ => ⟨S131072x512, .f32⟩
  | .hbm, ⟨21, _⟩ => ⟨S131072x512, .f32⟩
  | .hbm, ⟨22, _⟩ => ⟨S131072x512, .f32⟩
  | .hbm, ⟨23, _⟩ => ⟨S1x512, .f32⟩
  | .hbm, ⟨24, _⟩ => ⟨S131072x512, .f32⟩
  | .hbm, ⟨25, _⟩ => ⟨S131072x512, .f32⟩
  | .hbm, ⟨26, _⟩ => ⟨S131072x512, .f32⟩
  | .hbm, ⟨27, _⟩ => ⟨S512x3, .f32⟩
  | .hbm, ⟨28, _⟩ => ⟨S131072x3, .f32⟩
  | .hbm, ⟨29, _⟩ => ⟨S1x3, .f32⟩
  | .hbm, ⟨30, _⟩ => ⟨S131072x3, .f32⟩
  | .hbm, ⟨31, _⟩ => ⟨S131072x3, .f32⟩
  | _, _ => ⟨S131072x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  reducesTo_S131072x32_S131072_d1 : S131072x32.ReducesTo [1] S131072
  h_S_ : 0 < S_.numel
  bcast_S131072_S131072x1_0 : S131072.BroadcastsInDim S131072x1 (![0] : Fin 1 → Fin S131072x1.rank)
  reducesTo_S512x32_S512_d1 : S512x32.ReducesTo [1] S512
  bcast_S512_S1x512_1 : S512.BroadcastsInDim S1x512 (![1] : Fin 1 → Fin S1x512.rank)
  transposes_S512x32_S32x512_1_0 : S512x32.Transposes [1, 0] S32x512
  bcast_S131072x1_S131072x512_0_1 : S131072x1.BroadcastsInDim S131072x512 (![0, 1] : Fin 2 → Fin S131072x512.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  transposes_S3x512_S512x3_1_0 : S3x512.Transposes [1, 0] S512x3
  bcast_S3_S1x3_1 : S3.BroadcastsInDim S1x3 (![1] : Fin 1 → Fin S1x3.rank)
  bcast_S1x3_S131072x3_0_1 : S1x3.BroadcastsInDim S131072x3 (![0, 1] : Fin 2 → Fin S131072x3.rank)
  dot_S131072x32_S32x512_S131072x512_1_0_0_1_n_n_wf : DotDims.WF S131072x32 S32x512 S131072x512 [1] [0] [0] [1] [] []
  dot_S131072x512_S512x3_S131072x3_1_0_0_1_n_n_wf : DotDims.WF S131072x512 S512x3 S131072x3 [1] [0] [0] [1] [] []

variable [Facts₀]

def dot_S131072x32_S32x512_S131072x512_1_0_0_1_n_n : DotDims S131072x32 S32x512 S131072x512 where
  lhsContracting := [1]
  rhsContracting := [0]
  lhsNonContracting := [0]
  rhsNonContracting := [1]
  lhsBatch := []
  rhsBatch := []
  wf := dot_S131072x32_S32x512_S131072x512_1_0_0_1_n_n_wf
def dot_S131072x512_S512x3_S131072x3_1_0_0_1_n_n : DotDims S131072x512 S512x3 S131072x3 where
  lhsContracting := [1]
  rhsContracting := [0]
  lhsNonContracting := [0]
  rhsNonContracting := [1]
  lhsBatch := []
  rhsBatch := []
  wf := dot_S131072x512_S512x3_S131072x3_1_0_0_1_n_n_wf

class Facts : Prop extends Facts₀ where

variable [Facts]
-- ==== Proof.RbfSpec.lean ====
/-
  A radial-basis layer on the extended reals, in the two spellings the programs use.

  For rows `x_n` of an `[R, 32]` array, 512 centres `c_k` (rows of a `[512, 32]` array) and widths `σ_k`, the
  expanded squared distance is `|x_n|² + |c_k|² − 2 · ⟨x_n, c_k⟩` (`dist2`; the centres' squared lengths enter as a
  given row `csq`, since one program computes them outside its grid). One spelling multiplies the distance by a
  per-centre factor `ρ_k` before the exponential and contracts the weights on the left, giving a `[3, R]` array
  (`outMul`); the other divides the negated distance by `σ_k · σ_k` and contracts the weights on the right, giving
  `[R, 3]` (`outDiv`). With `ρ_k = (−1) / (σ_k · σ_k)` and every width nonzero the two agree entry for entry
  (`outMul_eq_outDiv`): off zero a quotient is the product with the inverse, so `d · ((−1) · s⁻¹) = (−d) · s⁻¹` by
  associativity alone, at the infinities too (`mul_neg_recip`); the weights' product commutes. At a zero width the
  two spellings differ (a distance of zero gives `0 · (−∞) = 0` on one side and `0 / 0` on the other), which is why
  the hypothesis is there. An entry of either array depends on `X` only through its own row (`outMul_row`).
-/
import Idealize.ShloMosaic.PureOps.Ideal
import Idealize.ShloMosaic.PureOps.Ideal.Laws
import Idealize.ShloMosaic.Lib.ValueIdx

noncomputable section

namespace Cert.Rbf

open Idealize.ShloMosaic Idealize.ShloMosaic.ValueIdx
open scoped BigOperators

/-- The f32 word of the factor 2 in the cross term: both programs carry the same word, so it is never evaluated. -/
abbrev two : EReal := Ideal.ofBits .f32 0x40000000#32

/-- The f32 word `0xBF800000` is the real number minus one. -/
theorem negOne_real : Ideal.ofBits .f32 0xBF800000#32 = ((-(1 : ℝ)) : EReal) := by
  simp [Ideal.ofBits, Ideal.ieee, -EReal.coe_mul, -EReal.coe_neg]; norm_num

/-- The f32 word `0xBF800000` is minus one. -/
theorem negOne_val : Ideal.ofBits .f32 0xBF800000#32 = -1 := by
  rw [negOne_real, EReal.coe_one]

/-- Off a zero divisor, multiplying by `(−1) / s` is dividing the negation by `s`: both are products with `s⁻¹`,
    regrouped; no finiteness is used. -/
theorem mul_neg_recip (d s : EReal) (hs : s ≠ 0) : d * Ideal.div (-1) s = Ideal.div (-d) s := by
  unfold Ideal.div
  rw [if_neg hs, if_neg hs, ← mul_assoc, mul_neg_one]

variable {R : ℕ}

/-- The squared length of row `n`. -/
def sqNorm (X : (⟨2, ![R, 32]⟩ : Shape).Idx → EReal) (n : Fin R) : EReal :=
  ∑ d : Fin 32, X (ix2 n d) * X (ix2 n d)

/-- The centres' squared lengths as a `[1, 512]` row. -/
def sqRow (Cn : (⟨2, ![512, 32]⟩ : Shape).Idx → EReal) : (⟨2, ![1, 512]⟩ : Shape).Idx → EReal :=
  fun i => sqNorm Cn (i 1)

theorem sqRow_apply (Cn : (⟨2, ![512, 32]⟩ : Shape).Idx → EReal) (k : Fin 512) :
    sqRow Cn (ix2 (0 : Fin 1) k) = sqNorm Cn k := rfl

/-- The inner product of row `n` of `X` with centre `k`. -/
def cross (X : (⟨2, ![R, 32]⟩ : Shape).Idx → EReal) (Cn : (⟨2, ![512, 32]⟩ : Shape).Idx → EReal) (n : Fin R) (k : Fin 512) : EReal :=
  ∑ d : Fin 32, X (ix2 n d) * Cn (ix2 k d)

/-- The expanded squared distance of row `n` to centre `k`, the centres' squared lengths given as the row `csq`. -/
def dist2 (X : (⟨2, ![R, 32]⟩ : Shape).Idx → EReal) (Cn : (⟨2, ![512, 32]⟩ : Shape).Idx → EReal)
    (csq : (⟨2, ![1, 512]⟩ : Shape).Idx → EReal) (n : Fin R) (k : Fin 512) : EReal :=
  (sqNorm X n + csq (ix2 (0 : Fin 1) k)) - two * cross X Cn n k

/-- Output `o` at row `n`, multiplying spelling: weights on the left, the distance times a per-centre factor. -/
def outMulAt (X : (⟨2, ![R, 32]⟩ : Shape).Idx → EReal) (Cn : (⟨2, ![512, 32]⟩ : Shape).Idx → EReal)
    (rho csq : (⟨2, ![1, 512]⟩ : Shape).Idx → EReal) (Wb : (⟨2, ![3, 512]⟩ : Shape).Idx → EReal)
    (b2 : (⟨2, ![3, 1]⟩ : Shape).Idx → EReal) (o : Fin 3) (n : Fin R) : EReal :=
  (∑ k : Fin 512, Wb (ix2 o k) * Ideal.exp (dist2 X Cn csq n k * rho (ix2 (0 : Fin 1) k))) + b2 (ix2 o (0 : Fin 1))

/-- The multiplying spelling as a `[3, R]` array. -/
def outMul (X : (⟨2, ![R, 32]⟩ : Shape).Idx → EReal) (Cn : (⟨2, ![512, 32]⟩ : Shape).Idx → EReal)
    (rho csq : (⟨2, ![1, 512]⟩ : Shape).Idx → EReal) (Wb : (⟨2, ![3, 512]⟩ : Shape).Idx → EReal)
    (b2 : (⟨2, ![3, 1]⟩ : Shape).Idx → EReal) : (⟨2, ![3, R]⟩ : Shape).Idx → EReal :=
  fun i => outMulAt X Cn rho csq Wb b2 (i 0) (i 1)

/-- Output `o` at row `n`, dividing spelling: the negated distance over the squared width, weights on the right. -/
def outDivAt (X : (⟨2, ![R, 32]⟩ : Shape).Idx → EReal) (Cn : (⟨2, ![512, 32]⟩ : Shape).Idx → EReal)
    (csq sg : (⟨2, ![1, 512]⟩ : Shape).Idx → EReal) (W : (⟨2, ![3, 512]⟩ : Shape).Idx → EReal)
    (b : (⟨1, ![3]⟩ : Shape).Idx → EReal) (n : Fin R) (o : Fin 3) : EReal :=
  (∑ k : Fin 512, Ideal.exp (Ideal.div (-(dist2 X Cn csq n k)) (sg (ix2 (0 : Fin 1) k) * sg (ix2 (0 : Fin 1) k))) * W (ix2 o k))
    + b (ix1 o)

/-- The dividing spelling as an `[R, 3]` array. -/
def outDiv (X : (⟨2, ![R, 32]⟩ : Shape).Idx → EReal) (Cn : (⟨2, ![512, 32]⟩ : Shape).Idx → EReal)
    (csq sg : (⟨2, ![1, 512]⟩ : Shape).Idx → EReal) (W : (⟨2, ![3, 512]⟩ : Shape).Idx → EReal)
    (b : (⟨1, ![3]⟩ : Shape).Idx → EReal) : (⟨2, ![R, 3]⟩ : Shape).Idx → EReal :=
  fun i => outDivAt X Cn csq sg W b (i 0) (i 1)

/-- The two spellings agree when the factor is `(−1) / (σ · σ)`, no width is zero, and the centres' squared lengths,
    the weights and the bias are the same numbers in their two layouts. -/
theorem outMul_eq_outDiv (X : (⟨2, ![R, 32]⟩ : Shape).Idx → EReal) (Cn : (⟨2, ![512, 32]⟩ : Shape).Idx → EReal)
    (rho csq csq' sg : (⟨2, ![1, 512]⟩ : Shape).Idx → EReal) (Wb W : (⟨2, ![3, 512]⟩ : Shape).Idx → EReal)
    (b2 : (⟨2, ![3, 1]⟩ : Shape).Idx → EReal) (b : (⟨1, ![3]⟩ : Shape).Idx → EReal)
    (hcsq : ∀ k : Fin 512, csq (ix2 (0 : Fin 1) k) = csq' (ix2 (0 : Fin 1) k))
    (hsg : ∀ k : Fin 512, sg (ix2 (0 : Fin 1) k) ≠ 0)
    (hrho : ∀ k : Fin 512, rho (ix2 (0 : Fin 1) k) = Ideal.div (-1) (sg (ix2 (0 : Fin 1) k) * sg (ix2 (0 : Fin 1) k)))
    (hW : ∀ (o : Fin 3) (k : Fin 512), Wb (ix2 o k) = W (ix2 o k))
    (hb : ∀ o : Fin 3, b2 (ix2 o (0 : Fin 1)) = b (ix1 o)) (o : Fin 3) (n : Fin R) :
    outMulAt X Cn rho csq Wb b2 o n = outDivAt X Cn csq' sg W b n o := by
  unfold outMulAt outDivAt
  rw [hb o]
  refine congrArg (· + b (ix1 o)) (Finset.sum_congr rfl fun k _ => ?_)
  have hd : dist2 X Cn csq n k = dist2 X Cn csq' n k := by unfold dist2; rw [hcsq k]
  rw [hd, hrho k, mul_neg_recip _ _ (mul_ne_zero (hsg k) (hsg k)), hW o k, mul_comm]

/-- An entry of the multiplying spelling reads `X` only in its own row. -/
theorem outMul_row {R' : ℕ} (X : (⟨2, ![R, 32]⟩ : Shape).Idx → EReal) (X' : (⟨2, ![R', 32]⟩ : Shape).Idx → EReal)
    (Cn : (⟨2, ![512, 32]⟩ : Shape).Idx → EReal) (rho csq : (⟨2, ![1, 512]⟩ : Shape).Idx → EReal)
    (Wb : (⟨2, ![3, 512]⟩ : Shape).Idx → EReal) (b2 : (⟨2, ![3, 1]⟩ : Shape).Idx → EReal)
    (n : Fin R) (n' : Fin R') (h : ∀ d : Fin 32, X (ix2 n d) = X' (ix2 n' d)) (o : Fin 3) :
    outMulAt X Cn rho csq Wb b2 o n = outMulAt X' Cn rho csq Wb b2 o n' := by
  unfold outMulAt dist2 sqNorm cross
  simp only [h]

end Cert.Rbf

end
-- ==== Proof.LibRowOps.lean ====
/-
  Rows of a matrix read at an index, for any number of rows `R` and any width `W`.

  A sum along the rows of an `[R, W]` array — the vector unit's lane reduction with a zero accumulator, or the
  host's reduce from an initial value — is, at row `r`, the sum over `k : Fin W` of the entries `(r, k)`
  (the host's: the initial value plus that sum). A vector `[R]` broadcast to a column `[R, 1]` reads its entry
  `r`, and a column `[R, 1]` broadcast along its unit axis to `[R, W]` reads its entry `(r, 0)`. All are stated at
  indices built from literal coordinates, so they rewrite a payload whatever the width.
-/
import Idealize.ShloMosaic.PureOps.Ideal.Laws
import Idealize.ShloMosaic.Lib.Pipeline.Value
import Idealize.ShloMosaic.Lib.ValueIdx
import Idealize.ShloMosaic.Lib.IdealHost

namespace Cert.RowOps

open Idealize.ShloMosaic Idealize.ShloMosaic.ValueIdx
open scoped BigOperators

variable {R W : ℕ} {α : Type}

/-- Over row `r`, the index with column `k` inserted is `(r, k)`. -/
theorem lift_row (h : (⟨2, ![R, W]⟩ : Shape).Reduces [1] ⟨1, ![R]⟩) (r : Fin R) (k : Fin W) :
    h.lift (ix1 r) k = ix2 r k := by
  funext c
  match c with
  | ⟨0, _⟩ => exact Fin.ext rfl
  | ⟨1, _⟩ => exact Fin.ext rfl

/-- A lane sum with the zero accumulator, at row `r`: the sum of the row's entries. -/
theorem rowSumK (src : FVec Ideal ⟨2, ![R, W]⟩ .f32) (h : (⟨2, ![R, W]⟩ : Shape).Reduces [1] ⟨1, ![R]⟩)
    (hφ : FKind.Formats .f32) (hacc : (0x00000000#32 : BitVec 32) = 0x00000000#32) (r : Fin R) :
    multiReduction .add [1] ⟨1, ![R]⟩ src 0x00000000#32 h hφ hacc (ix1 r) = ∑ k : Fin W, src (ix2 r k) := by
  refine (Ideal.multiReduction_add_single src _ h hφ hacc (ix1 r)).trans ?_
  exact Finset.sum_congr rfl fun k _ => congrArg src (lift_row h r k)

/-- The host's sum along the rows from an initial value, at row `r`: that value plus the sum of the row's entries. -/
theorem rowSumH {u : Shape} (x : FVec Ideal ⟨2, ![R, W]⟩ .f32) (init : u.Idx → Ideal .f32)
    (h : (⟨2, ![R, W]⟩ : Shape).ReducesTo [1] ⟨1, ![R]⟩) (hu : 0 < u.numel) (r : Fin R) :
    Host.reduceAdd x init h hu (ix1 r) = init (Shape.Idx.first hu) + ∑ k : Fin W, x (ix2 r k) := by
  have h' : (⟨2, ![R, W]⟩ : Shape).Reduces [1] ⟨1, ![R]⟩ := h.elim fun e hb => ⟨e, Nat.one_pos, hb⟩
  refine (hostReduceAdd_apply x init h hu (ix1 r)).trans ?_
  refine (Ideal.hostReduceAdd_single h h' x _ (ix1 r)).trans ?_
  exact congrArg _ (Finset.sum_congr rfl fun k _ => congrArg x (lift_row h' r k))

/-- A vector `[R]` broadcast to a column `[R, 1]` reads, at `(r, u)`, its entry `r`. -/
theorem bcastCol (v : (⟨1, ![R]⟩ : Shape).Idx → α)
    (h : (⟨1, ![R]⟩ : Shape).BroadcastsInDim ⟨2, ![R, 1]⟩ (![0] : Fin 1 → Fin 2)) (r : Fin R) (u : Fin 1) :
    broadcastInDim ⟨2, ![R, 1]⟩ (![0] : Fin 1 → Fin 2) h v (ix2 r u) = v (ix1 r) := by
  refine broadcastInDim_apply _ h v (ix2 r u) (ix1 r) fun a => ?_
  match a with
  | ⟨0, _⟩ =>
    show r.val = if R = 1 then 0 else r.val
    split
    · have := r.isLt; omega
    · rfl

/-- A column `[R, 1]` broadcast to `[R, W]` reads, at `(r, k)`, its entry `(r, 0)`. -/
theorem bcastRows (v : (⟨2, ![R, 1]⟩ : Shape).Idx → α)
    (h : (⟨2, ![R, 1]⟩ : Shape).BroadcastsInDim ⟨2, ![R, W]⟩ (![0, 1] : Fin 2 → Fin 2)) (r : Fin R) (k : Fin W) :
    broadcastInDim ⟨2, ![R, W]⟩ (![0, 1] : Fin 2 → Fin 2) h v (ix2 r k) = v (ix2 r (0 : Fin 1)) := by
  refine broadcastInDim_apply _ h v (ix2 r k) (ix2 r (0 : Fin 1)) fun a => ?_
  match a with
  | ⟨0, _⟩ =>
    show r.val = if R = 1 then 0 else r.val
    split
    · have := r.isLt; omega
    · rfl
  | ⟨1, _⟩ => rfl

end Cert.RowOps
-- ==== Proof.LibColumns.lean ====
/-
  Column vectors read at an index: the keep-dimension forms of a shape cast and a broadcast.

  A row reduction that keeps its reduced axis leaves an `[a, 1]` column. Three layout steps meet such a column:
  an `[a]` vector cast to the column (entry (i, 0) is entry i), the column cast to a `[1, a]` row (entry (0, i) is
  entry (i, 0): both sit at row-major position i), and the column broadcast along its unit axis to `[a, b]`
  (entry (p, c) is entry (p, 0)). Each is stated at indices built from literal coordinates.
-/
import Idealize.ShloMosaic.Lib.Pipeline.Value
import Idealize.ShloMosaic.Lib.ValueIdx

namespace Cert.Columns

open Idealize.ShloMosaic Idealize.ShloMosaic.ValueIdx

variable {α : Type}

/-- An `[a]` vector cast to an `[a, 1]` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.RbfBody.lean ====
/-
  The kernel body's stored value read at an index.

  At a grid point the body holds a `[2048, 32]` block of rows `x`, the centres, the row of factors `ρ`, the row of the
  centres' squared lengths, the weights and the bias column. Its one store is, at `(o, j)`, the sum over the 512 centres
  of `w(o, k) · exp((|x_j|² + |c_k|² − 2 ⟨x_j, c_k⟩) · ρ_k)` plus `b(o)`: the multiplying spelling of the layer
  (`Cert.Rbf.outMulAt`) on the block's rows. The two matrix products are read as sums over their one contracted axis
  (both contract the second axis of both operands), the row sum as a sum over the row, and the keep-dimension casts and
  broadcasts at coordinates; a change of float format is the identity on the extended reals.
-/
import proofs.«124530_j11484742549553_2_alg».proof.Proof.Gen.KernelIdeal.Skeleton
import proofs.«124530_j11484742549553_2_alg».proof.Proof.RbfSpec
import proofs.«124530_j11484742549553_2_alg».proof.Proof.LibRowOps
import proofs.«124530_j11484742549553_2_alg».proof.Proof.LibColumns
import Idealize.ShloMosaic.Lib.ValueLayout
import Idealize.ShloMosaic.Lib.Pipeline.Value
import Idealize.ShloMosaic.PureOps.Ideal.Laws

noncomputable section

namespace Cert.KernelIdeal.RbfBody

open Cert.KernelIdeal Cert.KernelIdeal.Gen Idealize.ShloMosaic Idealize.ShloMosaic.ValueIdx Cert.Rbf
open scoped BigOperators

/-! ## The two matrix products at an index -/

abbrev D1 := dot_S2048x32_S512x32_S2048x512_1_1_0_0_n_n
abbrev D2 := dot_S3x512_S2048x512_S3x2048_1_1_0_0_n_n

theorem D1_lhs0 (i : S2048x512.Idx) (q : D1.contr.Idx) : (D1.lhsIdx i q 0).val = (i 0).val := by
  unfold DotDims.lhsIdx
  rw [dif_neg (show ¬(0 : Fin S2048x32.rank) ∈ D1.lhsBatch by decide), dif_pos (show (0 : Fin S2048x32.rank) ∈ D1.lhsNonContracting by decide)]
  rfl
theorem D1_rhs0 (i : S2048x512.Idx) (q : D1.contr.Idx) : (D1.rhsIdx i q 0).val = (i 1).val := by
  unfold DotDims.rhsIdx
  rw [dif_neg (show ¬(0 : Fin S512x32.rank) ∈ D1.rhsBatch by decide), dif_pos (show (0 : Fin S512x32.rank) ∈ D1.rhsNonContracting by decide)]
  rfl
theorem D2_lhs0 (i : S3x2048.Idx) (q : D2.contr.Idx) : (D2.lhsIdx i q 0).val = (i 0).val := by
  unfold DotDims.lhsIdx
  rw [dif_neg (show ¬(0 : Fin S3x512.rank) ∈ D2.lhsBatch by decide), dif_pos (show (0 : Fin S3x512.rank) ∈ D2.lhsNonContracting by decide)]
  rfl
theorem D2_rhs0 (i : S3x2048.Idx) (q : D2.contr.Idx) : (D2.rhsIdx i q 0).val = (i 1).val := by
  unfold DotDims.rhsIdx
  rw [dif_neg (show ¬(0 : Fin S2048x512.rank) ∈ D2.rhsBatch by decide), dif_pos (show (0 : Fin S2048x512.rank) ∈ D2.rhsNonContracting by decide)]
  rfl

/-- Rows times centres: entry `(p, k)` is the inner product of row `p` with centre `k`. -/
theorem cross_apply (x : FVec Ideal S2048x32 .f32) (cn : FVec Ideal S512x32 .f32) (p : Fin 2048) (k : Fin 512) :
    matmul D1 (some .fp32) x cn (constant S2048x512 .f32 0x00000000#32) (ix2 p k) = ∑ d : Fin 32, x (ix2 p d) * cn (ix2 k d) := by
  simp only [matmul]
  rw [Ideal.matmul_constant_zero_apply, ← Equiv.sum_comp (contrEquiv1 D1 32 rfl rfl).symm]
  refine Finset.sum_congr rfl fun d _ => ?_
  have hd := contrEquiv1_symm_val D1 32 rfl rfl d
  have el : D1.lhsIdx (ix2 p k) ((contrEquiv1 D1 32 rfl rfl).symm d) = ix2 p d := funext fun a => Fin.ext (by
    match a with
    | ⟨0, _⟩ => exact D1_lhs0 _ _
    | ⟨1, _⟩ => exact (D1.lhsIdx_val_of_single rfl _ _).trans hd)
  have er : D1.rhsIdx (ix2 p k) ((contrEquiv1 D1 32 rfl rfl).symm d) = ix2 k d := funext fun a => Fin.ext (by
    match a with
    | ⟨0, _⟩ => exact D1_rhs0 _ _
    | ⟨1, _⟩ => exact (D1.rhsIdx_val_of_single rfl _ _).trans hd)
  rw [el, er]

/-- Weights times activations: entry `(o, j)` is the sum over centres of weight `(o, k)` times activation `(j, k)`. -/
theorem mix_apply (w : FVec Ideal S3x512 .bf16) (h : FVec Ideal S2048x512 .bf16) (o : Fin 3) (j : Fin 2048) :
    matmul D2 none w h (constant S3x2048 .f32 0x00000000#32) (ix2 o j) = ∑ k : Fin 512, w (ix2 o k) * h (ix2 j k) := by
  simp only [matmul]
  rw [Ideal.matmul_constant_zero_apply, ← Equiv.sum_comp (contrEquiv1 D2 512 rfl rfl).symm]
  refine Finset.sum_congr rfl fun k _ => ?_
  have hk := contrEquiv1_symm_val D2 512 rfl rfl k
  have el : D2.lhsIdx (ix2 o j) ((contrEquiv1 D2 512 rfl rfl).symm k) = ix2 o k := funext fun a => Fin.ext (by
    match a with
    | ⟨0, _⟩ => exact D2_lhs0 _ _
    | ⟨1, _⟩ => exact (D2.lhsIdx_val_of_single rfl _ _).trans hk)
  have er : D2.rhsIdx (ix2 o j) ((contrEquiv1 D2 512 rfl rfl).symm k) = ix2 j k := funext fun a => Fin.ext (by
    match a with
    | ⟨0, _⟩ => exact D2_rhs0 _ _
    | ⟨1, _⟩ => exact (D2.rhsIdx_val_of_single rfl _ _).trans hk)
  rw [el, er]

/-! ## The keep-dimension pieces at an index -/

/-- The rows' squared lengths, kept as a column and broadcast along the centres: entry `(p, k)` is row `p`'s sum. -/
theorem sqcol_apply (v : FVec Ideal S2048x32 .f32) (p : Fin 2048) (k : Fin 512) :
    broadcastTo S2048x512 (shapeCast S2048x1 (multiReduction .add [1] S2048 v 0x00000000#32 reduces_S2048x32_S2048 (.inl rfl) rfl)
      shapeCasts_S2048_S2048x1) broadcasts_S2048x1_S2048x512 (ix2 p k) = ∑ d : Fin 32, v (ix2 p d) :=
  (Cert.Columns.broadcastTo_a1_ab_apply _ broadcasts_S2048x1_S2048x512 p k).trans
    ((Cert.Columns.shapeCast_a_a1_apply _ shapeCasts_S2048_S2048x1 p 0).trans
      (Cert.RowOps.rowSumK v reduces_S2048x32_S2048 (.inl rfl) rfl p))

/-- A `[1, 512]` row broadcast down the 2048 rows: entry `(p, k)` is the row's entry `k`. -/
theorem row_apply (v : FVec Ideal S1x512 .f32) (p : Fin 2048) (k : Fin 512) :
    broadcastTo S2048x512 (shapeCast S1x512 v shapeCasts_S1x512_S1x512) broadcasts_S1x512_S2048x512 (ix2 p k) = v (ix2 (0 : Fin 1) k) := by
  rw [shapeCast_self]
  exact broadcastTo_1b_ab_apply v broadcasts_S1x512_S2048x512 p k

/-- The bias column broadcast along the rows: entry `(o, j)` is the bias of output `o`. -/
theorem bias_apply (v : FVec Ideal S3x1 .f32) (o : Fin 3) (j : Fin 2048) :
    broadcastTo S3x2048 (shapeCast S3x1 v shapeCasts_S3x1_S3x1) broadcasts_S3x1_S3x2048 (ix2 o j) = v (ix2 o (0 : Fin 1)) := by
  rw [shapeCast_self]
  exact Cert.Columns.broadcastTo_a1_ab_apply v broadcasts_S3x1_S3x2048 o j

/-! ## The stored value -/

/-- The body's store at `(o, j)` is the layer's multiplying spelling on the loaded blocks. -/
theorem pay_apply (x0 : FVec Ideal S2048x32 .f32) (x1 : FVec Ideal S512x32 .f32) (x3 x2 : FVec Ideal S1x512 .f32)
    (x4 : FVec Ideal S3x512 .bf16) (x5 : FVec Ideal S3x1 .f32) (o : Fin 3) (j : Fin 2048) :
    k0_pay1 (F := Ideal) x0 x1 x3 x2 x4 x5 (ix2 o j) = outMulAt x0 x1 x2 x3 x4 x5 o j := by
  unfold k0_pay1 outMulAt dist2 sqNorm cross
  dsimp only
  rw [addf_apply, mix_apply, bias_apply]
  refine congrArg (· + x5 (ix2 o (0 : Fin 1))) (Finset.sum_congr rfl fun k _ => ?_)
  rw [shapeCast_self, truncf_apply]
  show x4 (ix2 o k) * Ideal.exp _ = _
  rw [mulf_apply, subf_apply, addf_apply, mulf_apply, sqcol_apply, row_apply, row_apply, cross_apply, broadcast_apply]
  rfl

end Cert.KernelIdeal.RbfBody

end
-- ==== Proof.RbfBlocks.lean ====
/-
  From the grid's blocks to the region's output array.

  The grid has 64 points. At point `t` the body sees rows `2048 t … 2048 t + 2047` of the batch (block `(t, 0)` of the
  `[131072, 32]` array) and the whole of every other input (their block index is `(0, 0)` at every point), and writes
  back block `(0, t)` of the `[3, 131072]` output: columns `2048 t … 2048 t + 2047`. Since an entry of the layer reads
  the batch only in its own row, what point `t` writes back is block `t` of ONE array: the layer's multiplying spelling
  of the arrays the region finds (`regionG`). The 64 column blocks tile the output (column `n` lies in block
  `n / 2048`), so the output array ends holding `regionG`.
-/
import proofs.«124530_j11484742549553_2_alg».proof.Proof.Gen.KernelIdeal.Frame
import proofs.«124530_j11484742549553_2_alg».proof.Proof.RbfBody
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.RbfBlocks

open Cert.KernelIdeal Cert.KernelIdeal.Gen Idealize.ShloMosaic.ValueIdx Cert.Rbf

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the batch's block moves down its rows with the point, the output's along
    its columns, and every other window stays at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = t.val :=
  (by decide +kernel : ∀ t : Fin grid0.N, _)

/-! ## The arrays the region finds -/

abbrev aX (c : Dev nD) : S131072x32.Idx → EReal := V m c main_arg0
abbrev aC (c : Dev nD) : S512x32.Idx → EReal := V m c main_arg1
abbrev aRho (c : Dev nD) : S1x512.Idx → EReal := V m c main_v5
abbrev aCsq (c : Dev nD) : S1x512.Idx → EReal := V m c main_v2
abbrev aW (c : Dev nD) : S3x512.Idx → EReal := V m c main_v6
abbrev aB (c : Dev nD) : S3x1.Idx → EReal := V m c main_v7

/-- What the region's output array ends holding: the layer's multiplying spelling of the arrays the region finds. -/
def regionG (c : Dev nD) : S3x131072.Idx → EReal :=
  outMul (aX m c) (aC m c) (aRho m c) (aCsq m c) (aW m c) (aB m c)

/-! ## The input blocks -/

/-- Row `jj` of the batch's block at point `t` is row `2048 t + jj` of the batch. -/
theorem iblk0_apply (c : Dev nD) (t : Fin cfg0.N) (jj : Fin 2048) (d : Fin 32) (nn : Fin 131072)
    (hn : nn.val = t.val * 2048 + jj.val) :
    (iblk m c 0 t : S2048x32.Idx → EReal) (ix2 jj d) = aX m c (ix2 nn d) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 2048 + 1 * jj.val = nn.val; omega
  | ⟨1, _⟩ => show win0_0.index t (1 : Fin 2) * 32 + 1 * d.val = d.val; omega

/-- The centres' block is the whole array at every point. -/
theorem iblk1_eq (c : Dev nD) (t : Fin cfg0.N) : (iblk m c 1 t : S512x32.Idx → EReal) = aC m c := by
  obtain ⟨-, -, e0, e1, -⟩ := idx_facts t
  unfold iblk
  funext y
  rw [View.read_apply]
  show V m c main_arg1 _ = V m c main_arg1 y
  congr 1
  funext a
  apply Fin.ext
  match a with
  | ⟨0, _⟩ => show win0_1.index t (0 : Fin 2) * 512 + 1 * (y 0).val = (y 0).val; omega
  | ⟨1, _⟩ => show win0_1.index t (1 : Fin 2) * 32 + 1 * (y 1).val = (y 1).val; omega

/-- So is the row of factors, -/
theorem iblk2_eq (c : Dev nD) (t : Fin cfg0.N) : (iblk m c 2 t : S1x512.Idx → EReal) = aRho m c := by
  obtain ⟨-, -, -, -, e0, e1, -⟩ := idx_facts t
  unfold iblk
  funext y
  rw [View.read_apply]
  show V m c main_v5 _ = V m c main_v5 y
  congr 1
  funext a
  apply Fin.ext
  match a with
  | ⟨0, _⟩ => show win0_2.index t (0 : Fin 2) * 1 + 1 * (y 0).val = (y 0).val; omega
  | ⟨1, _⟩ => show win0_2.index t (1 : Fin 2) * 512 + 1 * (y 1).val = (y 1).val; omega

/-- the row of the centres' squared lengths, -/
theorem iblk3_eq (c : Dev nD) (t : Fin cfg0.N) : (iblk m c 3 t : S1x512.Idx → EReal) = aCsq m c := by
  obtain ⟨-, -, -, -, -, -, e0, e1, -⟩ := idx_facts t
  unfold iblk
  funext y
  rw [View.read_apply]
  show V m c main_v2 _ = V m c main_v2 y
  congr 1
  funext a
  apply Fin.ext
  match a with
  | ⟨0, _⟩ => show win0_3.index t (0 : Fin 2) * 1 + 1 * (y 0).val = (y 0).val; omega
  | ⟨1, _⟩ => show win0_3.index t (1 : Fin 2) * 512 + 1 * (y 1).val = (y 1).val; omega

/-- the weights, -/
theorem iblk4_eq (c : Dev nD) (t : Fin cfg0.N) : (iblk m c 4 t : S3x512.Idx → EReal) = aW m c := by
  obtain ⟨-, -, -, -, -, -, -, -, e0, e1, -⟩ := idx_facts t
  unfold iblk
  funext y
  rw [View.read_apply]
  show V m c main_v6 _ = V m c main_v6 y
  congr 1
  funext a
  apply Fin.ext
  match a with
  | ⟨0, _⟩ => show win0_4.index t (0 : Fin 2) * 3 + 1 * (y 0).val = (y 0).val; omega
  | ⟨1, _⟩ => show win0_4.index t (1 : Fin 2) * 512 + 1 * (y 1).val = (y 1).val; omega

/-- and the bias column. -/
theorem iblk5_eq (c : Dev nD) (t : Fin cfg0.N) : (iblk m c 5 t : S3x1.Idx → EReal) = aB m c := by
  obtain ⟨-, -, -, -, -, -, -, -, -, -, e0, e1, -⟩ := idx_facts t
  unfold iblk
  funext y
  rw [View.read_apply]
  show V m c main_v7 _ = V m c main_v7 y
  congr 1
  funext a
  apply Fin.ext
  match a with
  | ⟨0, _⟩ => show win0_5.index t (0 : Fin 2) * 3 + 1 * (y 0).val = (y 0).val; omega
  | ⟨1, _⟩ => show win0_5.index t (1 : Fin 2) * 1 + 1 * (y 1).val = (y 1).val; omega

/-! ## What a point writes back -/

/-- Point `t` writes back block `t` of `regionG`. -/
theorem flushed_eq (c : Dev nD) (t : Fin cfg0.N) :
    (dats m 0 c).flushed 6 t = ((cfg0.win 6).blk t).view.read (Elt Ideal) (regionG m c) := by
  show (cfg0.win 6).cut (grid0.coords t) ((dats m 0 c).after 6 t) = _
  rw [after0_6]
  unfold out0_6
  rw [View.canon_unit_zero hz]
  simp only [View.ld_unit_zero (S := S2048x32) hz, View.ld_unit_zero (S := S512x32) hz, View.ld_unit_zero (S := S1x512) hz,
    View.ld_unit_zero (S := S3x512) hz, View.ld_unit_zero (S := S3x1) hz]
  obtain ⟨-, -, -, -, -, -, -, -, -, -, -, -, e0, e1⟩ := idx_facts t
  funext j
  obtain ⟨o, jj, rfl⟩ : ∃ (o : Fin 3) (jj : Fin 2048), j = ix2 o jj := ⟨j 0, j 1, eq_ix2 j⟩
  have hlt : t.val * 2048 + jj.val < 131072 := by
    have ht : t.val < 64 := Nat.lt_of_lt_of_eq t.isLt N_0
    have := jj.isLt; omega
  have hemb : ((cfg0.win 6).blk t).view.emb (ix2 o jj) = (ix2 o (⟨t.val * 2048 + jj.val, hlt⟩ : Fin 131072) : S3x131072.Idx) := by
    funext a
    apply Fin.ext
    match a with
    | ⟨0, _⟩ => show win0_6.index t (0 : Fin 2) * 3 + 1 * o.val = o.val; omega
    | ⟨1, _⟩ => show win0_6.index t (1 : Fin 2) * 2048 + 1 * jj.val = t.val * 2048 + jj.val; omega
  rw [View.read_apply, hemb]
  show k0_pay1 (F := Ideal) (iblk m c 0 t) (iblk m c 1 t) (iblk m c 3 t) (iblk m c 2 t) (iblk m c 4 t) (iblk m c 5 t) (ix2 o jj)
    = outMulAt (aX m c) (aC m c) (aRho m c) (aCsq m c) (aW m c) (aB m c) o (⟨t.val * 2048 + jj.val, hlt⟩ : Fin 131072)
  refine (RbfBody.pay_apply _ _ _ _ _ _ o jj).trans ?_
  rw [iblk1_eq, iblk2_eq, iblk3_eq, iblk4_eq, iblk5_eq]
  exact outMul_row _ _ _ _ _ _ _ jj _ (fun d => iblk0_apply m c t jj d _ rfl) o

/-! ## The cover, and the array after the run -/

/-- An index of the output is in point `t`'s block iff each coordinate is in the block's range on its axis. -/
theorem mem_blk (t : Fin cfg0.N) (i : S3x131072.Idx) :
    i ∈ ((cfg0.win 6).blk t).view.set ↔ ∀ a : Fin 2, win0_6.index t a * S3x2048.size a ≤ (i a).val ∧ (i a).val < win0_6.index t a * S3x2048.size a + S3x2048.size a := by
  show i ∈ ((View.whole main_v8).slice (win0_6.rect t)).set ↔ _
  rw [View.set_slice_whole, Rect.mem_set_unit]
  exact Iff.rfl

/-- Every column lies in the block of the point `column / 2048`. -/
theorem cover (i : S3x131072.Idx) : ∃ t : Fin cfg0.N, (cfg0.win 6).flush t = true ∧ i ∈ ((cfg0.win 6).blk t).view.set := by
  have hi0 : (i 0).val < 3 := (i 0).isLt
  have hi1 : (i 1).val < 131072 := (i 1).isLt
  have hN : cfg0.N = 64 := N_0
  let t : Fin cfg0.N := ⟨(i 1).val / 2048, by rw [hN]; omega⟩
  obtain ⟨-, -, -, -, -, -, -, -, -, -, -, -, e0, e1⟩ := idx_facts t
  have e1' : win0_6.index t (1 : Fin 2) = (i 1).val / 2048 := e1
  refine ⟨t, flush0_6 t, ?_⟩
  rw [mem_blk]
  intro a
  match a with
  | ⟨0, _⟩ => show win0_6.index t (0 : Fin 2) * 3 ≤ (i 0).val ∧ (i 0).val < win0_6.index t (0 : Fin 2) * 3 + 3; omega
  | ⟨1, _⟩ => show win0_6.index t (1 : Fin 2) * 2048 ≤ (i 1).val ∧ (i 1).val < win0_6.index t (1 : Fin 2) * 2048 + 2048; omega

/-- The output array after the run is `regionG`. -/
theorem final (c : Dev nD) : (dats m 0 c).arrAt 6 cfg0.N = regionG m c :=
  (dats m 0 c).arrAt_eq_of_cover 6 (regionG m c) (fun t _ => flushed_eq m c t) cover

end Cert.KernelIdeal.RbfBlocks

end
-- ==== Proof.RbfHost.lean ====
/-
  The kernel program around its region, and its result as the layer's dividing spelling.

  Before the region the host computes, from the arguments, the row of factors `ρ_k = (−1) / (σ_k · σ_k)` (the constant
  is the word of −1.0), the row of the centres' squared lengths (a sum along each centre from the zero word), the
  weights in a narrower float format (the identity on the extended reals) and the bias as a column. After the region it
  transposes the `[3, 131072]` output to `[131072, 3]`. So entry `(n, o)` of the program's result is the layer's
  multiplying spelling at `(o, n)` with those arrays, which, no width being zero, is the dividing spelling of the
  arguments (`Cert.Rbf.outMul_eq_outDiv`).
-/
import proofs.«124530_j11484742549553_2_alg».proof.Proof.RbfBlocks
import Idealize.ShloMosaic.Lib.StableHlo.Run

noncomputable section

open Idealize.ShloMosaic Idealize.ShloMosaic.TcCoe Idealize.SL.Sem
open Idealize.ShloMosaic.Pipeline (Dat)

namespace Cert.KernelIdeal.RbfHost

open Cert.KernelIdeal Cert.KernelIdeal.Gen Idealize.ShloMosaic.ValueIdx Cert.Rbf Cert.KernelIdeal.RbfBlocks
open scoped BigOperators

variable (m : (ℓ : Loc nD τ sig) → Buf (Elt Ideal) ℓ) (ρ : Dev nD → PrngReg)

/-! ## The argument arrays as launched -/

abbrev mX (c : Dev nD) : S131072x32.Idx → EReal := m ((c : Thread nD τ).loc main_arg0)
abbrev mC (c : Dev nD) : S512x32.Idx → EReal := m ((c : Thread nD τ).loc main_arg1)
abbrev mS (c : Dev nD) : S1x512.Idx → EReal := m ((c : Thread nD τ).loc main_arg2)
abbrev mW (c : Dev nD) : S3x512.Idx → EReal := m ((c : Thread nD τ).loc main_arg3)
abbrev mB (c : Dev nD) : S3.Idx → EReal := m ((c : Thread nD τ).loc main_arg4)

/-- The program's result, as one function of the arguments: the layer's dividing spelling. -/
abbrev result (c : Dev nD) : S131072x3.Idx → EReal :=
  outDiv (mX m c) (mC m c) (sqRow (mC m c)) (mS m c) (mW m c) (mB m c)

/-! ## What the host leaves for the region -/

/-- The row of factors: minus one over the squared width. -/
theorem rho_apply (c : Dev nD) (k : Fin 512) :
    aRho m c (ix2 (0 : Fin 1) k) = Ideal.div (-1) (mS m c (ix2 (0 : Fin 1) k) * mS m c (ix2 (0 : Fin 1) k)) := by
  have e : (V m c main_v5 : S1x512.Idx → EReal)
      = Host.divf (F := Ideal) (broadcastInDim S1x512 ![] bcast_S_S1x512 (constant (F := Ideal) S_ .f32 0xBF800000#32))
          (mulf (mS m c) (mS m c)) := by
    show StableHlo.after hostOps0 (fun b => m (c, b)) (Proc.devRef .tc main_v5) = _
    after_results <;> rfl
  show (V m c main_v5 : S1x512.Idx → EReal) (ix2 (0 : Fin 1) k) = _
  rw [e]
  show Ideal.div (Ideal.ofBits .f32 0xBF800000#32) (mS m c (ix2 (0 : Fin 1) k) * mS m c (ix2 (0 : Fin 1) k)) = _
  rw [negOne_val]

/-- The row of the centres' squared lengths. -/
theorem csq_apply (c : Dev nD) (k : Fin 512) : aCsq m c (ix2 (0 : Fin 1) k) = sqNorm (mC m c) k := by
  have e : (V m c main_v2 : S1x512.Idx → EReal)
      = broadcastInDim S1x512 ![1] bcast_S512_S1x512_1
          (Host.reduceAdd (F := Ideal) (mulf (mC m c) (mC m c)) (constant (F := Ideal) S_ .f32 0x00000000#32) reducesTo_S512x32_S512_d1 h_S_) := by
    show StableHlo.after hostOps0 (fun b => m (c, b)) (Proc.devRef .tc main_v2) = _
    after_results <;> rfl
  show (V m c main_v2 : S1x512.Idx → EReal) (ix2 (0 : Fin 1) k) = _
  rw [e]
  refine (broadcastInDim_apply _ bcast_S512_S1x512_1 _ (ix2 (0 : Fin 1) k) (ix1 k) (fun a => match a with
    | ⟨0, _⟩ => by show k.val = if (512 : Nat) = 1 then 0 else k.val; rw [if_neg (by decide)])).trans ?_
  refine (Cert.RowOps.rowSumH _ _ reducesTo_S512x32_S512_d1 h_S_ k).trans ?_
  show Ideal.ofBits .f32 0x00000000#32 + ∑ d : Fin 32, mC m c (ix2 k d) * mC m c (ix2 k d) = _
  rw [Ideal.ofBits_zero_f32, zero_add]
  rfl

/-- The weights: a change of float format is the identity. -/
theorem w_apply (c : Dev nD) (o : Fin 3) (k : Fin 512) : aW m c (ix2 o k) = mW m c (ix2 o k) := by
  have e : (V m c main_v6 : S3x512.Idx → EReal) = mW m c := by
    show StableHlo.after hostOps0 (fun b => m (c, b)) (Proc.devRef .tc main_v6) = _
    after_results <;> rfl
  show (V m c main_v6 : S3x512.Idx → EReal) (ix2 o k) = _
  rw [e]

/-- The bias as a column. -/
theorem b_apply (c : Dev nD) (o : Fin 3) : aB m c (ix2 o (0 : Fin 1)) = mB m c (ix1 o) := by
  have e : (V m c main_v7 : S3x1.Idx → EReal) = shapeCast S3x1 (mB m c) shapeCasts_S3_S3x1 := by
    show StableHlo.after hostOps0 (fun b => m (c, b)) (Proc.devRef .tc main_v7) = _
    after_results <;> rfl
  show (V m c main_v7 : S3x1.Idx → EReal) (ix2 o (0 : Fin 1)) = _
  rw [e]
  exact Cert.Columns.shapeCast_a_a1_apply _ shapeCasts_S3_S3x1 o 0

/-! ## After the region -/

/-- The program's result buffer is the transpose of the region's output array. -/
theorem tail_eq (c : Dev nD) :
    (Pipeline.afterTail₀ cfgs (dats m) 0 (V0 m) [hostOps1] c main_v9 : S131072x3.Idx → EReal)
      = transpose S131072x3 [1, 0] (regionG m c) transposes_S3x131072_S131072x3_1_0 := by
  unfold Pipeline.afterTail₀
  show StableHlo.after hostOps1 _ (Proc.devRef .tc main_v9) = _
  after_results
  exact congrArg (fun x => transpose S131072x3 [1, 0] x transposes_S3x131072_S131072x3_1_0)
    ((Pipeline.withArrays_arr spec0 launch0.win.arr_inj c _ _ 6).trans (RbfBlocks.final m c))

/-- The transposed output is the dividing spelling of the arguments, when no width is zero. -/
theorem value_eq (hσ : ∀ (c : Dev nD) (k : Fin 512), mS m c (ix2 (0 : Fin 1) k) ≠ 0) (c : Dev nD) :
    transpose S131072x3 [1, 0] (regionG m c) transposes_S3x131072_S131072x3_1_0 = result m c := by
  funext i
  obtain ⟨n, o, rfl⟩ : ∃ (n : Fin 131072) (o : Fin 3), i = ix2 n o := ⟨i 0, i 1, eq_ix2 i⟩
  refine (transpose_apply [1, 0] (regionG m c) transposes_S3x131072_S131072x3_1_0 (ix2 n o) (ix2 o n) (fun b => ?_)).trans ?_
  · match b with
    | ⟨0, _⟩ => rfl
    | ⟨1, _⟩ => rfl
  show outMulAt (aX m c) (aC m c) (aRho m c) (aCsq m c) (aW m c) (aB m c) o n
    = outDivAt (mX m c) (mC m c) (sqRow (mC m c)) (mS m c) (mW m c) (mB m c) n o
  rw [show aX m c = mX m c from V_main_arg0 m c, show aC m c = mC m c from V_main_arg1 m c]
  exact outMul_eq_outDiv (mX m c) (mC m c) (aRho m c) (aCsq m c) (sqRow (mC m c)) (mS m c) (aW m c) (mW m c) (aB m c) (mB m c)
    (fun k => (csq_apply m c k).trans (sqRow_apply _ k).symm) (hσ c) (rho_apply m c) (w_apply m c) (b_apply m c) o n

/-! ## The run -/

/-- Every weakly fair execution of the kernel program terminates with its result buffer at the layer's dividing
    spelling of the arguments and the arguments unchanged, when no width is zero. -/
theorem run (hσ : ∀ (c : Dev nD) (k : Fin 512), mS m c (ix2 (0 : Fin 1) k) ≠ 0) :
    θ_run defs (onTc (τ := τ) (main (F := Ideal))) ⟨m, fun _ => 0, ρ⟩ fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v9 (Pipeline.mem_restRefs_of main_v9 (by decide) (by decide))).trans ((tail_eq m c).trans (value_eq m hσ c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.RbfHost

end
-- ==== Proof.RbfRef.lean ====
/-
  The reference program's result read at an index.

  Operation by operation (the generated read-at-an-index lemmas), entry `(n, o)` of the reference's result is the sum
  over the 512 centres of `exp(−(|x_n|² + |c_k|² − 2 ⟨x_n, c_k⟩) / (σ_k · σ_k)) · W(o, k)` plus `b(o)`: the dividing
  spelling of the layer (`Cert.Rbf.outDivAt`) with the centres' squared lengths as their row of sums. The host sums
  start from the zero word, whose value is 0; the transposes and broadcasts only move coordinates.
-/
import proofs.«124530_j11484742549553_2_alg».proof.Proof.Gen.ReferenceIdeal.Read
import proofs.«124530_j11484742549553_2_alg».proof.Proof.RbfSpec

noncomputable section

namespace Cert.ReferenceIdeal.RbfRef

open Cert.ReferenceIdeal Cert.ReferenceIdeal.Gen Cert.ReferenceIdeal.Read Idealize.ShloMosaic Idealize.ShloMosaic.ValueIdx Cert.Rbf
open scoped BigOperators

/-- The reference's result at `(n, o)` is the layer's dividing spelling of the argument arrays. -/
theorem ref_apply (x0 : FVec Ideal S131072x32 .f32) (x1 : FVec Ideal S512x32 .f32) (x2 : FVec Ideal S1x512 .f32)
    (x3 : FVec Ideal S3x512 .f32) (x4 : FVec Ideal S3 .f32) (n : Fin 131072) (o : Fin 3) :
    val_main_v23 (F := Ideal) x0 x1 x2 x3 x4 (ix2 n o) = outDivAt x0 x1 (sqRow x1) x2 x3 x4 n o := by
  have e20l : ∀ k : Fin 512, lidx_main_v20 (ix2 n o) k = ix2 n k := fun k => funext fun a => Fin.ext (by
    match a with | ⟨0, _⟩ => rfl | ⟨1, _⟩ => rfl)
  have e20r : ∀ k : Fin 512, idx_main_v19 (ridx_main_v20 (ix2 n o) k) = ix2 o k := fun k => funext fun a => Fin.ext (by
    match a with | ⟨0, _⟩ => rfl | ⟨1, _⟩ => rfl)
  have e22 : idx_main_v21 (idx_main_v22 (ix2 n o)) = ix1 o := funext fun a => Fin.ext (by
    match a with | ⟨0, _⟩ => rfl)
  have e8 : ∀ k : Fin 512, idx_main_v2 (idx_main_v8 (ix2 n k)) = ix1 n := fun k => funext fun a => Fin.ext (by
    match a with | ⟨0, _⟩ => rfl)
  have e1 : ∀ d : Fin 32, idx_main_v1 (ix1 n) d = ix2 n d := fun d => funext fun a => Fin.ext (by
    match a with | ⟨0, _⟩ => rfl | ⟨1, _⟩ => rfl)
  have e9 : ∀ k : Fin 512, idx_main_v5 (idx_main_v9 (ix2 n k)) = ix1 k := fun k => funext fun a => Fin.ext (by
    match a with | ⟨0, _⟩ => rfl)
  have e4 : ∀ (k : Fin 512) (d : Fin 32), idx_main_v4 (ix1 k) d = ix2 k d := fun k d => funext fun a => Fin.ext (by
    match a with | ⟨0, _⟩ => rfl | ⟨1, _⟩ => rfl)
  have e7l : ∀ (k : Fin 512) (d : Fin 32), lidx_main_v7 (ix2 n k) d = ix2 n d := fun k d => funext fun a => Fin.ext (by
    match a with | ⟨0, _⟩ => rfl | ⟨1, _⟩ => rfl)
  have e7r : ∀ (k : Fin 512) (d : Fin 32), idx_main_v6 (ridx_main_v7 (ix2 n k) d) = ix2 k d := fun k d => funext fun a => Fin.ext (by
    match a with | ⟨0, _⟩ => rfl | ⟨1, _⟩ => rfl)
  have e16 : ∀ k : Fin 512, idx_main_v16 (ix2 n k) = ix2 (0 : Fin 1) k := fun k => funext fun a => Fin.ext (by
    match a with | ⟨0, _⟩ => rfl | ⟨1, _⟩ => rfl)
  rw [val_main_v23_apply, val_main_v20_apply, val_main_v22_apply, val_main_v21_apply, e22]
  unfold outDivAt dist2
  refine congrArg (· + x4 (ix1 o)) (Finset.sum_congr rfl fun k _ => ?_)
  rw [sqRow_apply]
  unfold sqNorm cross
  rw [e20l, val_main_v19_apply, e20r, val_main_v18_apply, val_main_v17_apply, val_main_v14_apply, val_main_v13_apply,
    val_main_v10_apply, val_main_v12_apply, val_main_v11_apply, val_main_cst_1_apply, val_main_v7_apply,
    val_main_v8_apply, val_main_v2_apply, e8, val_main_v1_apply, val_main_v9_apply, val_main_v5_apply, e9,
    val_main_v4_apply, val_main_v16_apply, e16, val_main_v15_apply]
  simp only [val_main_v0_apply, val_main_v3_apply, val_main_v6_apply, val_main_cst_apply, val_main_cst_0_apply,
    e1, e4, e7l, e7r, Ideal.mulf_def, Ideal.addf_def, Ideal.subf_def, Ideal.hostDivf_def, Ideal.hostNegf_def,
    Ideal.negf_def, Ideal.hostUnary_exp_def, Ideal.ofBits_def, Ideal.ofBits_zero_f32, zero_add]

/-- The reference's result array is the layer's dividing spelling of the argument arrays. -/
theorem ref_value (x0 : FVec Ideal S131072x32 .f32) (x1 : FVec Ideal S512x32 .f32) (x2 : FVec Ideal S1x512 .f32)
    (x3 : FVec Ideal S3x512 .f32) (x4 : FVec Ideal S3 .f32) :
    val_main_v23 (F := Ideal) x0 x1 x2 x3 x4 = outDiv x0 x1 (sqRow x1) x2 x3 x4 := by
  funext i
  obtain ⟨n, o, rfl⟩ : ∃ (n : Fin 131072) (o : Fin 3), i = ix2 n o := ⟨i 0, i 1, eq_ix2 i⟩
  exact ref_apply x0 x1 x2 x3 x4 n o

end Cert.ReferenceIdeal.RbfRef

end
-- ==== Proof.SigmaNonzero.lean ====
/-
  The precondition of this certificate is a conjunction of six tests of the argument arrays. Its last conjunct
  compares every entry of the widths array (the third argument, of shape [1, 512]) with zero by "not equal" and
  takes the conjunction over all entries. At the ideal values — a float an extended real, the comparison the
  order's own — the precondition being 1 therefore says: every width is nonzero. That is what this module proves,
  first of the printed precondition over any five arrays, then of a launch memory the precondition holds of.
-/
import proofs.«124530_j11484742549553_2_alg».proof.Defs
import Idealize.ShloMosaic.Lib.ReduceAll
import Idealize.ShloMosaic.Lib.ValueIdx
import Idealize.ShloMosaic.PureOps.Ideal.Laws

noncomputable section

namespace Cert.Proof.Domain

open Idealize.ShloMosaic Idealize.SL.Sem

/-- The shape with no axes has exactly one index. -/
instance subsingleton_scalar_idx : Subsingleton Cert.Pre_finite_inputs.S_.Idx :=
  ⟨fun a b => funext fun d => d.elim0⟩

/-- A one-bit word made from a Boolean is 1 exactly when the Boolean is true. -/
theorem ofBool_eq_one (b : Bool) : BitVec.ofBool b = 1#1 ↔ b = true := by cases b <;> decide

/-- "Not equal" read at the extended reals: where the comparison answers 1 its operands differ. -/
theorem ne_of_cmp_une (x y : EReal) (h : Ideal.cmp .une x y = 1#1) : x ≠ y := by
  have h' : BitVec.ofBool (decide (x ≠ y)) = 1#1 := h
  rw [ofBool_eq_one] at h'
  exact of_decide_eq_true h'

/-- The printed precondition decoded at its last conjunct: if it is 1 over five arrays of ideal values, every
    entry of the third — the widths — is nonzero. The outer conjunction gives the last test; that test is a
    conjunction over all 512 entries of "entry ≠ 0", so each entry passes it; and the zero it is compared with is
    the splat of the all-zero word, whose ideal value is 0. -/
theorem sigma_ne_zero_of_fn [Cert.Pre_finite_inputs.Facts]
    (a0 : FVec Ideal Cert.Pre_finite_inputs.S131072x32 .f32) (a1 : FVec Ideal Cert.Pre_finite_inputs.S512x32 .f32)
    (a2 : FVec Ideal Cert.Pre_finite_inputs.S1x512 .f32) (a3 : FVec Ideal Cert.Pre_finite_inputs.S3x512 .f32)
    (a4 : FVec Ideal Cert.Pre_finite_inputs.S3 .f32)
    (h : Cert.Pre_finite_inputs.fn (F := Ideal) a0 a1 a2 a3 a4 = (fun _ => 1#1))
    (i : Cert.Pre_finite_inputs.S1x512.Idx) : a2 i ≠ (0 : EReal) := by
  have h0 := congrFun h ValueIdx.ix0
  dsimp only [Cert.Pre_finite_inputs.fn, Cert.Pre_finite_inputs.fn_part1] at h0
  obtain ⟨-, h1⟩ := IntOp.andi_eq_one.1 h0
  have h2 := Host.reduce_andi_all _ _ _ _ _ h1 i
  rw [ValueIdx.cmpf_apply] at h2
  have h3 : Ideal.cmp .une (a2 i) (Ideal.ofBits .f32 0x00000000#32) = 1#1 := h2
  rw [Ideal.ofBits_zero_f32] at h3
  exact ne_of_cmp_une _ _ h3

/-- Every width the launch memory holds is nonzero, on every device, when the precondition holds of that memory. -/
theorem sigma_ne_zero [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S1x512.Idx) :
    m ((c.tc : Thread Cert.KernelIdeal.nD Cert.KernelIdeal.τ).loc Cert.KernelIdeal.main_arg2) i ≠ (0 : EReal) :=
  sigma_ne_zero_of_fn _ _ _ _ _ (hpre c) i

end Cert.Proof.Domain

end
-- ==== Proof.lean ====
/-
  A radial-basis layer: 131072 rows `x_n` of width 32, 512 centres `c_k` with widths `σ_k`, three outputs.

  Both programs expand the squared distance as `|x_n|² + |c_k|² − 2 ⟨x_n, c_k⟩`, take `exp` of its negative over
  `σ_k²`, contract with a `[3, 512]` weight matrix and add a bias. The kernel tiles the rows into 64 blocks of 2048; on
  the host it forms the row `ρ_k = (−1) / (σ_k · σ_k)` and the centres' squared lengths once, multiplies the distance by
  `ρ_k` inside the body, contracts with the weights on the left into a `[3, 131072]` array and transposes it at the
  end. The reference negates the distance and divides by `σ_k · σ_k`, with the weights on the right. On the extended
  reals the changes of float format are the identity and both matrix products and both row sums are plain sums, so
  entry `(n, o)` of either result is `∑_k exp(…) · W(o, k) + b(o)`; the two exponents agree because, off a zero
  divisor, `d · ((−1) · s⁻¹) = (−d) · s⁻¹` (associativity; the infinities included). At a zero width they do not (a zero
  distance gives `0 · (−∞) = 0` against `0 / 0`), so the precondition's last conjunct — every width nonzero — is used,
  and only it: nothing else of the precondition is opened.

  The three frames are the generated ones (the reference's is its generated run with the result dropped); the
  idealization rewrote nothing, so `preserves` is trivial.
-/
import proofs.«124530_j11484742549553_2_alg».proof.Defs
import proofs.«124530_j11484742549553_2_alg».proof.Proof.Gen.Kernel
import proofs.«124530_j11484742549553_2_alg».proof.Proof.Gen.Kernel.Skeleton
import proofs.«124530_j11484742549553_2_alg».proof.Proof.Gen.Kernel.Launch
import proofs.«124530_j11484742549553_2_alg».proof.Proof.Gen.Kernel.Points
import proofs.«124530_j11484742549553_2_alg».proof.Proof.Gen.Kernel.Frame
import proofs.«124530_j11484742549553_2_alg».proof.Proof.Gen.KernelIdeal
import proofs.«124530_j11484742549553_2_alg».proof.Proof.Gen.KernelIdeal.Skeleton
import proofs.«124530_j11484742549553_2_alg».proof.Proof.Gen.KernelIdeal.Launch
import proofs.«124530_j11484742549553_2_alg».proof.Proof.Gen.KernelIdeal.Points
import proofs.«124530_j11484742549553_2_alg».proof.Proof.Gen.KernelIdeal.Frame
import proofs.«124530_j11484742549553_2_alg».proof.Proof.Gen.ReferenceIdeal
import proofs.«124530_j11484742549553_2_alg».proof.Proof.Gen.ReferenceIdeal.Run
import proofs.«124530_j11484742549553_2_alg».proof.Proof.Gen.ReferenceIdeal.Read
import proofs.«124530_j11484742549553_2_alg».proof.Proof.Gen.Pre_finite_inputs
import proofs.«124530_j11484742549553_2_alg».proof.Proof.RbfHost
import proofs.«124530_j11484742549553_2_alg».proof.Proof.RbfRef
import proofs.«124530_j11484742549553_2_alg».proof.Proof.SigmaNonzero
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with their result at the layer's dividing spelling of the arguments: the kernel by its blocks, the
    host lines around its region and the law joining the two spellings (it needs the widths nonzero, which the
    precondition says); the reference operation by operation. -/
theorem algebraic : Cert.algebraic_KernelIdeal_ReferenceIdeal := by
  intro m ρ m' ρ' hpre hagree
  refine ⟨fun c => Cert.KernelIdeal.RbfHost.result m c,
    Cert.KernelIdeal.RbfHost.run m ρ (fun c k => Cert.Proof.Domain.sigma_ne_zero m hpre c _), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v23_eq]
  exact Cert.ReferenceIdeal.RbfRef.ref_value _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
